-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x1024 : Shape := ⟨2, ![4096, 1024]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S64x4096 .f32) (main_arg1 : FVec F S4096x1024 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S64x4096 : Shape := ⟨2, ![64, 4096]⟩
abbrev S4096x1024 : Shape := ⟨2, ![4096, 1024]⟩
abbrev S64x2048 : Shape := ⟨2, ![64, 2048]⟩
abbrev S2048x1024 : Shape := ⟨2, ![2048, 1024]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S64x4096, .f32⟩
  | .hbm, ⟨1, _⟩ => ⟨S4096x1024, .f32⟩
  | .hbm, ⟨2, _⟩ => ⟨S64x4096, .f32⟩
  | .local _ .vmem, ⟨0, _⟩ => ⟨S64x2048, .f32⟩
  | .local _ .vmem, ⟨1, _⟩ => ⟨S64x2048, .f32⟩
  | .local _ .vmem, ⟨2, _⟩ => ⟨S2048x1024, .f32⟩
  | .local _ .vmem, ⟨3, _⟩ => ⟨S2048x1024, .f32⟩
  | .local _ .vmem, ⟨4, _⟩ => ⟨S64x2048, .f32⟩
  | .local _ .vmem, ⟨5, _⟩ => ⟨S64x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  inb_S64x2048_S64x2048_0_0 : ∀ a, (![0, 0] : Fin 2 → Nat) a + S64x2048.size a ≤ S64x2048.size a
  h_S64x2048 : 0 < S64x2048.numel
  shapeCasts_S2048_S1x2048 : S2048.ShapeCasts S1x2048
  shapeCasts_S1x2048_S1x2048 : S1x2048.ShapeCasts S1x2048
  broadcasts_S1x2048_S64x2048 : S1x2048.Broadcasts S64x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x4096.size a
  hwx0_0 : ∀ i : grid0.Coords, EltTy.bits .f32 = 32 ∨ (Rect.block (s := S64x4096) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x1024.size a
  hwx0_1 : ∀ i : grid0.Coords, EltTy.bits .f32 = 32 ∨ (Rect.block (s := S4096x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x4096.size a
  hwx0_2 : ∀ i : grid0.Coords, EltTy.bits .f32 = 32 ∨ (Rect.block (s := S64x4096) S64x2048.size (cc0_transform_2 i) (hinb0_2 i)).WholeWords (EltTy.packing .f32)

variable [Facts₀]

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x1024 : Shape := ⟨2, ![4096, 1024]⟩
abbrev S_ : Shape := ⟨0, ![]⟩
abbrev S64x4096x1 : Shape := ⟨3, ![64, 4096, 1]⟩
abbrev S1x4096x1024 : Shape := ⟨3, ![1, 4096, 1024]⟩
abbrev S64x4096x1024 : Shape := ⟨3, ![64, 4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S64x4096x1, .f32⟩
  | .hbm, ⟨11, _⟩ => ⟨S1x4096x1024, .f32⟩
  | .hbm, ⟨12, _⟩ => ⟨S64x4096x1024, .f32⟩
  | .hbm, ⟨13, _⟩ => ⟨S64x4096x1024, .f32⟩
  | .hbm, ⟨14, _⟩ => ⟨S64x4096x1024, .f32⟩
  | .hbm, ⟨15, _⟩ => ⟨S_, .f32⟩
  | .hbm, ⟨16, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S64x4096_S64x4096x1_0_1 : S64x4096.BroadcastsInDim S64x4096x1 (![0, 1] : Fin 2 → Fin S64x4096x1.rank)
  bcast_S4096x1024_S1x4096x1024_1_2 : S4096x1024.BroadcastsInDim S1x4096x1024 (![1, 2] : Fin 2 → Fin S1x4096x1024.rank)
  bcast_S64x4096x1_S64x4096x1024_0_1_2 : S64x4096x1.BroadcastsInDim S64x4096x1024 (![0, 1, 2] : Fin 3 → Fin S64x4096x1024.rank)
  bcast_S1x4096x1024_S64x4096x1024_0_1_2 : S1x4096x1024.BroadcastsInDim S64x4096x1024 (![0, 1, 2] : Fin 3 → Fin S64x4096x1024.rank)
  reducesTo_S64x4096x1024_S64x4096_d2 : S64x4096x1024.ReducesTo [2] S64x4096
  h_S_ : 0 < S_.numel

variable [Facts₀]

class Facts : Prop extends Facts₀ where

variable [Facts]
-- ==== Proof.FiniteEntries.lean ====
/-
  What the precondition says of the argument arrays: every entry of both is a real number.

  The precondition is the conjunction of two tests, one per argument: "every entry's absolute value is below `+∞`",
  each an all-reduction by `and` of the entrywise comparisons. On the extended reals the absolute value is `max x (-x)`;
  it is `+∞` at both infinities, so an entry that passes the test is neither and is therefore a real.
-/
import proofs.«139074_g17334488006868_pilotgen1_493_8_alg».proof.Pre_finite_inputs
import Idealize.ShloMosaic.PureOps.Ideal
import Idealize.ShloMosaic.Lib.ReduceAll
import Idealize.ShloMosaic.Lib.ValueIdx

noncomputable section

namespace Cert.FiniteEntries

open Idealize.ShloMosaic Cert.Pre_finite_inputs

/-- An extended real whose absolute value `max x (-x)` is below `+∞` is a real. -/
theorem real_of_abs_lt_top (x : EReal) (h : max x (-x) < ⊤) : ∃ r : ℝ, x = (r : EReal) := by
  induction x with
  | bot => exact absurd h (by simp)
  | coe r => exact ⟨r, rfl⟩
  | top => exact absurd h (by simp)

/-- The comparison "less than" that came out true is the order's. -/
theorem lt_of_cmp_olt (a b : EReal) (h : Ideal.cmp .olt a b = 1#1) : a < b := by
  have h' : BitVec.ofBool (decide (a < b)) = 1#1 := h
  by_contra hn
  rw [decide_eq_false hn] at h'
  exact absurd h' (by decide)

/-- The f32 pattern of `+∞`. -/
theorem ofBits_pos_inf : Ideal.ofBits .f32 0x7F800000#32 = ⊤ := by simp [Ideal.ofBits, Ideal.ieee]

instance : Subsingleton S_.Idx := ⟨fun a b => funext fun d => d.elim0⟩

variable [Cert.Pre_finite_inputs.Facts]

/-- Under the precondition every entry of both argument arrays is a real number. -/
theorem entries_real (X : FVec Ideal S64x4096 .f32) (A : FVec Ideal S4096x1024 .f32)
    (h : fn (F := Ideal) X A = fun _ => 1#1) :
    (∀ i, ∃ r : ℝ, X i = (r : EReal)) ∧ (∀ i, ∃ r : ℝ, A i = (r : EReal)) := by
  have h0 := congrFun h ValueIdx.ix0
  dsimp only [fn] at h0
  obtain ⟨hX, hA⟩ := IntOp.andi_eq_one.1 h0
  refine ⟨fun i => ?_, fun i => ?_⟩
  · have e := Host.reduce_andi_all _ _ _ _ _ hX i
    have e' : Ideal.cmp .olt (max (X i) (-(X i))) (Ideal.ofBits .f32 0x7F800000#32) = 1#1 := e
    have hlt := lt_of_cmp_olt _ _ e'
    rw [ofBits_pos_inf] at hlt
    exact real_of_abs_lt_top _ hlt
  · have e := Host.reduce_andi_all _ _ _ _ _ hA i
    have e' : Ideal.cmp .olt (max (A i) (-(A i))) (Ideal.ofBits .f32 0x7F800000#32) = 1#1 := e
    have hlt := lt_of_cmp_olt _ _ e'
    rw [ofBits_pos_inf] at hlt
    exact real_of_abs_lt_top _ hlt

end Cert.FiniteEntries

end
-- ==== Proof.SigmoidExtrema.lean ====
/-
  The mathematics that joins the two programs, free of any program: scaling a row of sigmoids by a real number and
  then taking the row's maximum is the same as scaling the sigmoid of ONE extreme entry of the row.

  The sigmoid `σ r = 1 / (1 + e^(-r))` is positive and increasing on the reals. So for a real scale `x` and a nonempty
  finite row of reals `a`:
    * if `0 ≤ x`, the products `x · σ (a k)` are largest where `a k` is largest: `max_k (x · σ (a k)) = x · σ (max_k a k)`;
    * if `x < 0`, multiplication by `x` reverses the order, and they are largest where `a k` is smallest:
      `max_k (x · σ (a k)) = x · σ (min_k a k)`.
  The maxima and minima are folds of `max` from `-∞` and of `min` from `+∞` over the extended reals; over a nonempty finite
  index set of reals each is attained at some index, which is all the proof uses.
-/
import Idealize.ShloMosaic.PureOps.Ideal

noncomputable section

namespace Cert.SigmoidExtrema

open Idealize.ShloMosaic

/-- The sigmoid on the reals. -/
def sig (r : ℝ) : ℝ := (1 + Real.exp (-r))⁻¹

/-- The sigmoid is increasing: a larger argument makes `1 + e^(-r)` smaller and its inverse larger. -/
theorem sig_mono {r s : ℝ} (h : r ≤ s) : sig r ≤ sig s := by
  unfold sig
  refine inv_anti₀ (by positivity) ?_
  have := Real.exp_le_exp.2 (neg_le_neg h)
  linarith

/-- On a real the extended reals' sigmoid is the real one. -/
theorem logistic_real (r : ℝ) : Ideal.logistic (r : EReal) = ((sig r : ℝ) : EReal) := Ideal.logistic_coe r

/-- A real scale times the sigmoid of a real is the real product. -/
theorem scaled_real (x r : ℝ) : (x : EReal) * Ideal.logistic (r : EReal) = ((x * sig r : ℝ) : EReal) := by
  rw [logistic_real, EReal.coe_mul]

/-- A fold of `max` from `-∞` is the value at any index that dominates all the others. -/
theorem fold_max_attained {ι : Type*} (s : Finset ι) (g : ι → EReal) (k₀ : ι) (hk : k₀ ∈ s) (h : ∀ k ∈ s, g k ≤ g k₀) :
    s.fold max ⊥ g = g k₀ :=
  le_antisymm ((Finset.fold_max_le _).2 ⟨bot_le, h⟩) ((Finset.le_fold_max _).2 (Or.inr ⟨k₀, hk, le_rfl⟩))

/-- A fold of `min` from `+∞` is the value at any index that all the others dominate. -/
theorem fold_min_attained {ι : Type*} (s : Finset ι) (g : ι → EReal) (k₁ : ι) (hk : k₁ ∈ s) (h : ∀ k ∈ s, g k₁ ≤ g k) :
    s.fold min ⊤ g = g k₁ :=
  le_antisymm ((Finset.fold_min_le _).2 (Or.inr ⟨k₁, hk, le_rfl⟩)) ((Finset.le_fold_min _).2 ⟨le_top, h⟩)

/-- THE LAW. For a real scale `x` and a nonempty finite row of reals `a`, the maximum over the row of `x · σ (a k)` is
    `x` times the sigmoid of the row's maximum when `0 ≤ x`, of the row's minimum otherwise. -/
theorem max_scaled_sigmoid {ι : Type*} [Fintype ι] [Nonempty ι] (x : ℝ) (a : ι → ℝ) :
    Finset.univ.fold max ⊥ (fun k => (x : EReal) * Ideal.logistic (a k : EReal))
      = (x : EReal) * (if (0 : EReal) ≤ (x : EReal) then Ideal.logistic (Finset.univ.fold max ⊥ fun k => (a k : EReal))
          else Ideal.logistic (Finset.univ.fold min ⊤ fun k => (a k : EReal))) := by
  obtain ⟨k₀, h₀⟩ := Finite.exists_max a
  obtain ⟨k₁, h₁⟩ := Finite.exists_min a
  have hM : Finset.univ.fold max ⊥ (fun k => (a k : EReal)) = (a k₀ : EReal) :=
    fold_max_attained _ _ k₀ (Finset.mem_univ _) fun k _ => EReal.coe_le_coe_iff.2 (h₀ k)
  have hm : Finset.univ.fold min ⊤ (fun k => (a k : EReal)) = (a k₁ : EReal) :=
    fold_min_attained _ _ k₁ (Finset.mem_univ _) fun k _ => EReal.coe_le_coe_iff.2 (h₁ k)
  rw [hM, hm]
  by_cases hx : (0 : EReal) ≤ (x : EReal)
  · rw [if_pos hx]
    have hx' : 0 ≤ x := EReal.coe_nonneg.1 hx
    refine fold_max_attained _ _ k₀ (Finset.mem_univ _) fun k _ => ?_
    rw [scaled_real, scaled_real]
    exact EReal.coe_le_coe_iff.2 (mul_le_mul_of_nonneg_left (sig_mono (h₀ k)) hx')
  · rw [if_neg hx]
    have hx' : x ≤ 0 := le_of_lt (not_le.1 fun h => hx (EReal.coe_nonneg.2 h))
    refine fold_max_attained _ _ k₁ (Finset.mem_univ _) fun k _ => ?_
    rw [scaled_real, scaled_real]
    exact EReal.coe_le_coe_iff.2 (mul_le_mul_of_nonpos_left (sig_mono (h₁ k)) hx')

end Cert.SigmoidExtrema

end
-- ==== Proof.ScaledRowMax.lean ====
/-
  THE RESULT ARRAY, as one function of the two argument arrays, in the two arrangements the programs compute it in.

  The arguments are `X : [64, 4096]` and `A : [4096, 1024]`. Entry `(b, r)` of the result depends on the one entry `X (b, r)`
  and on ROW `r` of `A` (its 1024 entries `A (r, k)`):
    * `maxScaled`: the maximum over `k` of `X (b, r) · σ (A (r, k))` — scale every sigmoid of the row, then take the maximum;
    * `byExtreme`: `X (b, r) · σ (max_k A (r, k))` when `0 ≤ X (b, r)`, and `X (b, r) · σ (min_k A (r, k))` otherwise —
      find the row's two extremes first, and scale the sigmoid of the one the sign of `X (b, r)` selects.
  Maxima and minima are folds of `max` from `-∞` and `min` from `+∞` on the extended reals. When `X (b, r)` and the row are
  real numbers the two agree (`maxScaled_eq_byExtreme`: the sigmoid is positive and increasing, so a nonnegative scale
  keeps the order of the row and a negative one reverses it). At an infinite entry they need not, and nothing is
  claimed there.
-/
import proofs.«139074_g17334488006868_pilotgen1_493_8_alg».proof.Proof.SigmoidExtrema
import Idealize.ShloMosaic.Lib.ValueIdx

noncomputable section

namespace Cert.ScaledRowMax

open Idealize.ShloMosaic Idealize.ShloMosaic.ValueIdx

/-- The shape of `X` and of the result. -/
abbrev SX : Shape := ⟨2, ![64, 4096]⟩
/-- The shape of `A`. -/
abbrev SA : Shape := ⟨2, ![4096, 1024]⟩

/-- Row `r` of `A`. -/
def row (A : SA.Idx → EReal) (r : Fin 4096) : Fin 1024 → EReal := fun k => A (ix2 r k)

/-- Scale the sigmoid of the row's maximum (`0 ≤ x`) or minimum (`x < 0`). -/
def byExtreme (x : EReal) (a : Fin 1024 → EReal) : EReal :=
  x * (if (0 : EReal) ≤ x then Ideal.logistic (Finset.univ.fold max ⊥ a) else Ideal.logistic (Finset.univ.fold min ⊤ a))

/-- The maximum over the row of the scaled sigmoids. -/
def maxScaled (x : EReal) (a : Fin 1024 → EReal) : EReal :=
  Finset.univ.fold max ⊥ fun k => x * Ideal.logistic (a k)

/-- For a real scale and a row of reals the two arrangements agree. -/
theorem maxScaled_eq_byExtreme (x : EReal) (a : Fin 1024 → EReal) (hx : ∃ r : ℝ, x = (r : EReal))
    (ha : ∀ k, ∃ r : ℝ, a k = (r : EReal)) : maxScaled x a = byExtreme x a := by
  obtain ⟨xr, rfl⟩ := hx
  choose ar har using ha
  obtain rfl : a = fun k => (ar k : EReal) := funext har
  haveI : Nonempty (Fin 1024) := ⟨⟨0, by decide⟩⟩
  exact SigmoidExtrema.max_scaled_sigmoid xr ar

/-- The result array in the first arrangement: entry `i = (b, r)` from `X i` and row `r` of `A`. -/
def resultByExtreme (X : SX.Idx → EReal) (A : SA.Idx → EReal) : SX.Idx → EReal :=
  fun i => byExtreme (X i) (row A ⟨(i 1).val, (i 1).isLt⟩)

/-- The result array in the second arrangement. -/
def resultMaxScaled (X : SX.Idx → EReal) (A : SA.Idx → EReal) : SX.Idx → EReal :=
  fun i => maxScaled (X i) (row A ⟨(i 1).val, (i 1).isLt⟩)

/-- On arrays of reals the two result arrays are one. -/
theorem resultMaxScaled_eq (X : SX.Idx → EReal) (A : SA.Idx → EReal) (hX : ∀ i, ∃ r : ℝ, X i = (r : EReal))
    (hA : ∀ i, ∃ r : ℝ, A i = (r : EReal)) : resultMaxScaled X A = resultByExtreme X A :=
  funext fun i => maxScaled_eq_byExtreme _ _ (hX i) fun k => hA _

end Cert.ScaledRowMax

end
-- ==== Proof.RefValue.lean ====
/-
  The reference's result is the result array in the arrangement "scale every sigmoid of the row, then take the maximum".

  The reference computes `W = 1 / (1 + exp (-A))` entry by entry — on the extended reals that expression IS the sigmoid —,
  broadcasts `X` along a new last axis and `W` along a new first axis to `[64, 4096, 1024]`, multiplies, and reduces the
  last axis by `max` from `-∞`. At result index `(b, r)` the reduction runs over the indices `(b, r, k)`, `k < 1024`, where
  the product is `X (b, r) · σ (A (r, k))`.
-/
import proofs.«139074_g17334488006868_pilotgen1_493_8_alg».proof.Proof.Gen.ReferenceIdeal.Read
import proofs.«139074_g17334488006868_pilotgen1_493_8_alg».proof.Proof.ScaledRowMax
import Idealize.ShloMosaic.PureOps.Ideal.Laws
import Idealize.ShloMosaic.Lib.ValueIdx

noncomputable section

namespace Cert.RefValue

open Idealize.ShloMosaic Idealize.ShloMosaic.ValueIdx Cert.ReferenceIdeal Cert.ReferenceIdeal.Gen Cert.ReferenceIdeal.Read
open Cert.ScaledRowMax

/-- The reduction drops the last of the three axes. -/
theorem hred : S64x4096x1024.Reduces [2] S64x4096 := by decide

/-- The f32 pattern of `-∞`. -/
theorem ofBits_neg_inf : Ideal.ofBits .f32 0xFF800000#32 = ⊥ := by simp [Ideal.ofBits, Ideal.ieee]

/-- The f32 pattern of `1`. -/
theorem ofBits_one : Ideal.ofBits .f32 0x3F800000#32 = 1 := by simp [Ideal.ofBits, Ideal.ieee, -EReal.coe_mul]; norm_num

/-- The product array at `(b, r, k)` is `X (b, r) · σ (A (r, k))`. -/
theorem product_apply (X : FVec Ideal S64x4096 .f32) (A : FVec Ideal S4096x1024 .f32) (b : Fin 64) (r : Fin 4096) (k : Fin 1024) :
    val_main_v10 (F := Ideal) X A (hred.lift (ix2 b r) k) = X (ix2 b r) * Ideal.logistic (A (ix2 r k)) := by
  have ex : idx_main_v6 (idx_main_v8 (hred.lift (ix2 b r) k)) = ix2 b r :=
    funext fun a => Fin.ext (by match a with | ⟨0, _⟩ => rfl | ⟨1, _⟩ => rfl)
  have ea : idx_main_v7 (idx_main_v9 (hred.lift (ix2 b r) k)) = ix2 r k :=
    funext fun a => Fin.ext (by match a with | ⟨0, _⟩ => rfl | ⟨1, _⟩ => rfl)
  rw [val_main_v10_apply, val_main_v8_apply, val_main_v6_apply, val_main_v9_apply, val_main_v7_apply, val_main_v5_apply,
    val_main_v4_apply, val_main_cst_0_apply, val_main_v3_apply, val_main_v2_apply, val_main_cst_apply, val_main_v1_apply,
    val_main_v0_apply, ex, ea]
  simp only [Ideal.mulf_def, Ideal.hostDivf_def, Ideal.addf_def, Ideal.hostUnary_exp_def, Ideal.hostNegf_def, Ideal.negf_def,
    Ideal.ofBits_def, ofBits_one]
  rfl

/-- THE REFERENCE'S RESULT, index by index: the maximum over row `r` of the scaled sigmoids. -/
theorem result_eq (X : FVec Ideal S64x4096 .f32) (A : FVec Ideal S4096x1024 .f32) :
    val_main_v11 (F := Ideal) X A = resultMaxScaled X A := by
  funext i
  obtain ⟨b, r, rfl⟩ : ∃ (b : Fin 64) (r : Fin 4096), i = ix2 b r := ⟨i 0, i 1, eq_ix2 i⟩
  unfold val_main_v11
  rw [Host.reduce_eq_fold_single FloatOps.maximumf _ _ reducesTo_S64x4096x1024_S64x4096_d2 hred h_S_ (ix2 b r)]
  show Finset.univ.fold max (val_main_cst_1 (F := Ideal) (Shape.Idx.first h_S_))
      (fun k : Fin 1024 => val_main_v10 (F := Ideal) X A (hred.lift (ix2 b r) k))
    = Finset.univ.fold max ⊥ (fun k : Fin 1024 => X (ix2 b r) * Ideal.logistic (A (ix2 r k)))
  have hi : val_main_cst_1 (F := Ideal) (Shape.Idx.first h_S_) = ⊥ := by
    rw [val_main_cst_1_apply]; exact ofBits_neg_inf
  have hf : (fun k : Fin 1024 => val_main_v10 (F := Ideal) X A (hred.lift (ix2 b r) k))
      = fun k : Fin 1024 => X (ix2 b r) * Ideal.logistic (A (ix2 r k)) := funext fun k => product_apply X A b r k
  rw [hi, hf]

end Cert.RefValue

end
-- ==== Proof.KernelPayload.lean ====
/-
  What the kernel body stores, read at one index of its block.

  At a grid point the body holds a block `P0 : [64, 2048]` of `X` and a block `P1 : [2048, 1024]` of `A`. It reduces `P1` along
  its rows twice — the maximum from `-∞` and the minimum from `+∞`, each a vector of 2048 —, takes the sigmoid of both
  vectors, lays each out as one row `[1, 2048]` repeated down the 64 rows of the block, and at every entry multiplies
  `P0` by the first where `P0 ≥ 0` and by the second elsewhere. So entry `(b, q)` of what it stores is
  `P0 (b, q) · σ (max_k P1 (q, k))` or `P0 (b, q) · σ (min_k P1 (q, k))` by the sign of `P0 (b, q)`: the arrangement
  `byExtreme` of `P0 (b, q)` and row `q` of `P1`.
-/
import proofs.«139074_g17334488006868_pilotgen1_493_8_alg».proof.Proof.Gen.KernelIdeal.Skeleton
import proofs.«139074_g17334488006868_pilotgen1_493_8_alg».proof.Proof.ScaledRowMax
import Idealize.ShloMosaic.PureOps.Ideal.Laws
import Idealize.ShloMosaic.Lib.ValueIdx
import Idealize.ShloMosaic.Lib.ValueLayout

noncomputable section

namespace Cert.KernelPayload

open Idealize.ShloMosaic Idealize.ShloMosaic.ValueIdx Cert.KernelIdeal Cert.KernelIdeal.Gen Cert.ScaledRowMax

/-- The f32 pattern of `-∞`. -/
theorem ofBits_neg_inf : Ideal.ofBits .f32 0xFF800000#32 = ⊥ := by simp [Ideal.ofBits, Ideal.ieee]

/-- The f32 pattern of `+∞`. -/
theorem ofBits_pos_inf : Ideal.ofBits .f32 0x7F800000#32 = ⊤ := by simp [Ideal.ofBits, Ideal.ieee]

/-- The index of the `[2048, 1024]` block over row `q` with column `k` put back is `(q, k)`. -/
theorem lift_eq (q : Fin 2048) (k : Fin 1024) : reduces_S2048x1024_S2048.lift (ix1 q) k = ix2 q k :=
  funext fun a => Fin.ext (by match a with | ⟨0, _⟩ => rfl | ⟨1, _⟩ => rfl)

/-- The row maximum at `q`: the fold of `max` from `-∞` over row `q`. -/
theorem rowMax_apply (P1 : FVec Ideal S2048x1024 .f32) (hφ : FKind.Formats .f32)
    (hacc : (0xFF800000#32 : BitVec 32) = FKind.maximumf.neutral .f32 hφ) (q : Fin 2048) :
    multiReduction .maximumf [1] S2048 P1 0xFF800000#32 reduces_S2048x1024_S2048 hφ hacc (ix1 q)
      = Finset.univ.fold max ⊥ (fun k : Fin 1024 => P1 (ix2 q k)) := by
  refine (Ideal.multiReduction_maximumf_single P1 _ reduces_S2048x1024_S2048 hφ hacc (ix1 q)).trans ?_
  show Finset.univ.fold max (Ideal.ofBits .f32 0xFF800000#32)
      (fun k : Fin 1024 => P1 (reduces_S2048x1024_S2048.lift (ix1 q) k)) = _
  rw [ofBits_neg_inf]
  exact congrArg (fun f => Finset.univ.fold max ⊥ f) (funext fun k => congrArg P1 (lift_eq q k))

/-- The row minimum at `q`: the fold of `min` from `+∞` over row `q`. -/
theorem rowMin_apply (P1 : FVec Ideal S2048x1024 .f32) (hφ : FKind.Formats .f32)
    (hacc : (0x7F800000#32 : BitVec 32) = FKind.minimumf.neutral .f32 hφ) (q : Fin 2048) :
    multiReduction .minimumf [1] S2048 P1 0x7F800000#32 reduces_S2048x1024_S2048 hφ hacc (ix1 q)
      = Finset.univ.fold min ⊤ (fun k : Fin 1024 => P1 (ix2 q k)) := by
  refine (multiReduction_minimumf_eq_fold P1 _ reduces_S2048x1024_S2048 hφ hacc (ix1 q)).trans ?_
  refine (reduces_S2048x1024_S2048.fold_filter_drop_single _ _ P1 (ix1 q)).trans ?_
  show Finset.univ.fold min (Ideal.ofBits .f32 0x7F800000#32)
      (fun k : Fin 1024 => P1 (reduces_S2048x1024_S2048.lift (ix1 q) k)) = _
  rw [ofBits_pos_inf]
  exact congrArg (fun f => Finset.univ.fold min ⊤ f) (funext fun k => congrArg P1 (lift_eq q k))

/-- A vector of 2048 laid out as one row and repeated down 64 rows reads, at `(b, q)`, the vector at `q`. -/
theorem rowBroadcast_apply (v : FVec Ideal S2048 .f32) (b : Fin 64) (q : Fin 2048) :
    broadcastTo S64x2048 (shapeCast S1x2048 (shapeCast S1x2048 v shapeCasts_S2048_S1x2048) shapeCasts_S1x2048_S1x2048)
      broadcasts_S1x2048_S64x2048 (ix2 b q) = v (ix1 q) := by
  refine (broadcastTo_1b_ab_apply _ _ b q).trans ?_
  rw [shapeCast_self]
  exact shapeCast_a_1a_apply v _ 0 q

/-- Selecting by the comparison `x ≥ 0` is the `if` on the order. -/
theorem select_oge_zero (x a b : EReal) :
    Scalar.select (Ideal.cmp .oge x (Ideal.ofBits .f32 0x00000000#32)) a b = if (0 : EReal) ≤ x then a else b := by
  rw [Ideal.ofBits_zero_f32]
  by_cases h : (0 : EReal) ≤ x
  · simp [Scalar.select, Ideal.cmp, h]
  · simp [Scalar.select, Ideal.cmp, h]

/-- The body's arithmetic with the two row reductions replaced by arbitrary vectors `vmax`, `vmin` of 2048: the sigmoid of
    each, laid out as a row and repeated down the block, selected entry by entry by the sign of `P0`, times `P0`. -/
def scaleSelect (P0 : FVec Ideal S64x2048 .f32) (vmax vmin : FVec Ideal S2048 .f32) : FVec Ideal S64x2048 .f32 :=
  mulf P0 (select (cmpf .oge P0 (broadcast S64x2048 (Scalar.ofBits .f32 0x00000000#32)))
    (broadcastTo S64x2048 (shapeCast S1x2048 (shapeCast S1x2048 (logistic vmax) shapeCasts_S2048_S1x2048) shapeCasts_S1x2048_S1x2048) broadcasts_S1x2048_S64x2048)
    (broadcastTo S64x2048 (shapeCast S1x2048 (shapeCast S1x2048 (logistic vmin) shapeCasts_S2048_S1x2048) shapeCasts_S1x2048_S1x2048) broadcasts_S1x2048_S64x2048))

/-- The scalar form of one entry: `x` times the sigmoid of `u` when `0 ≤ x`, of `v` otherwise. -/
def scaleBySign (x u v : EReal) : EReal := x * (if (0 : EReal) ≤ x then Ideal.logistic u else Ideal.logistic v)

/-- Entry `(b, q)` of `scaleSelect` reads `P0` at `(b, q)` and the two vectors at `q`. -/
theorem scaleSelect_apply (P0 : FVec Ideal S64x2048 .f32) (vmax vmin : FVec Ideal S2048 .f32) (b : Fin 64) (q : Fin 2048) :
    scaleSelect P0 vmax vmin (ix2 b q) = scaleBySign (P0 (ix2 b q)) (vmax (ix1 q)) (vmin (ix1 q)) := by
  unfold scaleSelect scaleBySign
  refine (mulf_apply _ _ _).trans ?_
  refine congrArg (fun z => P0 (ix2 b q) * z) ?_
  refine (select_apply _ _ _ _).trans ?_
  refine (congrArg₂ (Scalar.select _) ?_ ?_).trans (select_oge_zero (P0 (ix2 b q)) _ _)
  · exact rowBroadcast_apply (logistic vmax) b q
  · exact rowBroadcast_apply (logistic vmin) b q

/-- The body's stored value IS `scaleSelect` at the row maxima and the row minima of `P1`. -/
theorem payload_eq (P1 : FVec Ideal S2048x1024 .f32) (P0 : FVec Ideal S64x2048 .f32) :
    k0_pay1 (F := Ideal) P1 P0 = scaleSelect P0
      (multiReduction .maximumf [1] S2048 P1 0xFF800000#32 reduces_S2048x1024_S2048 (.inl rfl) rfl)
      (multiReduction .minimumf [1] S2048 P1 0x7F800000#32 reduces_S2048x1024_S2048 (.inl rfl) rfl) := rfl

/-- THE STORED VALUE at `(b, q)`: `P0 (b, q)` times the sigmoid of row `q`'s maximum or minimum, by its sign. -/
theorem payload_apply (P1 : FVec Ideal S2048x1024 .f32) (P0 : FVec Ideal S64x2048 .f32) (b : Fin 64) (q : Fin 2048) :
    k0_pay1 (F := Ideal) P1 P0 (ix2 b q) = byExtreme (P0 (ix2 b q)) (fun k : Fin 1024 => P1 (ix2 q k)) :=
  (congrFun (payload_eq P1 P0) (ix2 b q)).trans
    ((scaleSelect_apply P0 _ _ b q).trans
      (congrArg₂ (scaleBySign (P0 (ix2 b q))) (rowMax_apply P1 (.inl rfl) rfl q) (rowMin_apply P1 (.inl rfl) rfl q)))

end Cert.KernelPayload

end
-- ==== Proof.KernelValue.lean ====
/-
  From blocks to the array: after the kernel's run the output array is `resultByExtreme` of the two argument arrays.

  The grid has two points. At point `t` the kernel stages columns `[2048 t, 2048 t + 2048)` of `X` (a `[64, 2048]` block),
  rows `[2048 t, 2048 t + 2048)` of `A` (a `[2048, 1024]` block), and writes back columns `[2048 t, 2048 t + 2048)` of the
  result. Entry `(b, q)` of the written block is the body's stored value there: `byExtreme` of the `X` block's entry `(b, q)`
  — which is `X (b, 2048 t + q)` — and row `q` of the `A` block — which is row `2048 t + q` of `A`. That is the result
  function at `(b, 2048 t + q)`, the array index under entry `(b, q)` of the written block. The two blocks cover the
  `[64, 4096]` result (column `r` lies in block `r / 2048`), so the whole array ends at the result function.
-/
import proofs.«139074_g17334488006868_pilotgen1_493_8_alg».proof.Proof.Gen.KernelIdeal.Frame
import proofs.«139074_g17334488006868_pilotgen1_493_8_alg».proof.Proof.KernelPayload
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.ScaledRowMax Cert.KernelPayload

variable (m : (ℓ : Loc nD τ sig) → Buf (Elt Ideal) ℓ) (ρ : Dev nD → PrngReg)

/-- The body's loads and its store start at the origin of their blocks. -/
theorem zero_offsets : (![0, 0] : Fin 2 → Nat) = fun _ => 0 := funext fun a => by fin_cases a <;> rfl

/-- The three windows' block indices at point `t`: `X` and the result move along their columns with `t`, `A` along its rows. -/
theorem block_indices : ∀ t : Fin cfg0.N,
    win0_0.index t (0 : Fin 2) = 0 ∧ win0_0.index t (1 : Fin 2) = win0_2.index t (1 : Fin 2)
    ∧ win0_1.index t (0 : Fin 2) = win0_2.index t (1 : Fin 2) ∧ win0_1.index t (1 : Fin 2) = 0
    ∧ win0_2.index t (0 : Fin 2) = 0 ∧ win0_2.index t (1 : Fin 2) ≤ 1 :=
  (by decide +kernel : ∀ t : Fin grid0.N, _)

/-- Each of the two column blocks of the result is some point's. -/
theorem block_onto : ∀ q1 : Fin 2, ∃ t : Fin cfg0.N, win0_2.index t = ![0, q1.val] :=
  (by decide +kernel : ∀ q1 : Fin 2, ∃ t : Fin grid0.N, win0_2.index t = ![0, q1.val])

/-- One entry of a written block, over arbitrary blocks `P0`, `P1` that read the arrays `X`, `A` where the window says:
    `P0` at `j` is `X` at the array index `i`, and row `j 1` of `P1` is row `i 1` of `A`. -/
theorem block_entry (X : SX.Idx → EReal) (A : SA.Idx → EReal) (P0 : FVec Ideal S64x2048 .f32) (P1 : FVec Ideal S2048x1024 .f32)
    (j : S64x2048.Idx) (i : SX.Idx) (hP0 : P0 j = X i)
    (hP1 : ∀ k : Fin 1024, P1 (ix2 (⟨(j 1).val, (j 1).isLt⟩ : Fin 2048) k) = A (ix2 (⟨(i 1).val, (i 1).isLt⟩ : Fin 4096) k)) :
    k0_pay1 (F := Ideal) P1 P0 j = resultByExtreme X A i := by
  obtain ⟨b, q, rfl⟩ : ∃ (b : Fin 64) (q : Fin 2048), j = ix2 b q := ⟨j 0, j 1, eq_ix2 j⟩
  refine (payload_apply P1 P0 b q).trans ?_
  unfold resultByExtreme row
  rw [hP0]
  exact congrArg (byExtreme (X i)) (funext hP1)

/-- WHAT POINT `t` WRITES BACK is block `t` of the result function of the argument arrays. -/
theorem flushed_eq (c : Dev nD) (t : Fin cfg0.N) :
    (dats m 0 c).flushed 2 t
      = ((cfg0.win 2).blk t).view.read (Elt Ideal) (resultByExtreme (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S64x2048) zero_offsets, View.ld_unit_zero (S := S2048x1024) zero_offsets]
  obtain ⟨e00, e01, e10, e11, e20, e21⟩ := block_indices t
  funext j
  have hj0 : (j 0).val < 64 := (j 0).isLt
  have hj1 : (j 1).val < 2048 := (j 1).isLt
  refine block_entry (V m c main_arg0) (V m c main_arg1) (iblk m c 0 t) (iblk m c 1 t) j (((cfg0.win 2).blk t).view.emb j) ?_ ?_
  · show V m c main_arg0 (((cfg0.win 0).blk t).view.emb j) = V m c main_arg0 (((cfg0.win 2).blk t).view.emb j)
    refine congrArg (V m c main_arg0) (funext fun a => Fin.ext ?_)
    match a with
    | ⟨0, _⟩ => show win0_0.index t (0 : Fin 2) * 64 + 1 * (j 0).val = win0_2.index t (0 : Fin 2) * 64 + 1 * (j 0).val; omega
    | ⟨1, _⟩ => show win0_0.index t (1 : Fin 2) * 2048 + 1 * (j 1).val = win0_2.index t (1 : Fin 2) * 2048 + 1 * (j 1).val; omega
  · intro k
    have hk : k.val < 1024 := k.isLt
    show V m c main_arg1 (((cfg0.win 1).blk t).view.emb (ix2 (⟨(j 1).val, (j 1).isLt⟩ : Fin 2048) k)) = _
    refine congrArg (V m c main_arg1) (funext fun a => Fin.ext ?_)
    match a with
    | ⟨0, _⟩ => show win0_1.index t (0 : Fin 2) * 2048 + 1 * (j 1).val = win0_2.index t (1 : Fin 2) * 2048 + 1 * (j 1).val; omega
    | ⟨1, _⟩ => show win0_1.index t (1 : Fin 2) * 1024 + 1 * k.val = k.val; omega

/-- An index of the result array is in point `t`'s block iff each coordinate is in the block's range on its axis. -/
theorem mem_blk (t : Fin cfg0.N) (i : S64x4096.Idx) :
    i ∈ ((cfg0.win 2).blk t).view.set ↔ ∀ a : Fin 2, win0_2.index t a * S64x2048.size a ≤ (i a).val
      ∧ (i a).val < win0_2.index t a * S64x2048.size a + S64x2048.size a := by
  show i ∈ ((View.whole main_v0).slice (win0_2.rect t)).set ↔ _
  rw [View.set_slice_whole, Rect.mem_set_unit]
  exact Iff.rfl

/-- Every index of the result array is in some point's block: column `r` in block `r / 2048`. -/
theorem covered (i : S64x4096.Idx) :
    ∃ t : Fin cfg0.N, (cfg0.win 2).flush t = true ∧ i ∈ ((cfg0.win 2).blk t).view.set := by
  have hi0 : (i 0).val < 64 := (i 0).isLt
  have hi1 : (i 1).val < 4096 := (i 1).isLt
  obtain ⟨t, ht⟩ := block_onto ⟨(i 1).val / 2048, by omega⟩
  have q0 : win0_2.index t (0 : Fin 2) = 0 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 2048 ≤ (i 1).val ∧ (i 1).val < win0_2.index t (1 : Fin 2) * 2048 + 2048; omega

/-- THE OUTPUT ARRAY after the run is the result function of the argument arrays. -/
theorem final (c : Dev nD) : (dats m 0 c).arrAt 2 cfg0.N
    = resultByExtreme (m ((c : Thread nD τ).loc main_arg0)) (m ((c : Thread nD τ).loc main_arg1)) :=
  (dats m 0 c).arrAt_eq_of_cover 2 (resultByExtreme (V m c main_arg0) (V m c main_arg1)) (fun t _ => flushed_eq m c t) covered

/-- THE KERNEL'S RUN: every weakly fair execution terminates with the output array at the result function of the arguments
    and the arguments unchanged (an input window is staged and never written back). -/
theorem run : θ_run defs (onTc (τ := τ) (main (F := Ideal))) ⟨m, fun _ => 0, ρ⟩ fun r => ∀ c : Dev nD,
      r.2.mem ((c : Thread nD τ).loc main_v0)
        = resultByExtreme (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelValue

end
-- ==== Proof.lean ====
/- The proof of `Cert.Claim`: the kernel and its reference compute one array on the extended reals.

   Both take `X : [64, 4096]` and `A : [4096, 1024]` and return `[64, 4096]`. With `σ r = 1 / (1 + e^(-r))`:
     * the reference forms every product `X (b, r) · σ (A (r, k))` and takes the maximum over `k`;
     * the kernel, block of 2048 columns by block, takes the maximum and the minimum of row `r` of `A` once, applies `σ` to
       both, and returns `X (b, r) · σ (max_k A (r, k))` where `X (b, r) ≥ 0` and `X (b, r) · σ (min_k A (r, k))` elsewhere.
   `σ` is positive and increasing, so multiplying the row of sigmoids by a nonnegative real keeps its order and by a
   negative real reverses it: the largest product sits at the row's largest entry in the first case and at its smallest
   in the second (Proof/SigmoidExtrema.lean). That needs `X (b, r)` and the row to be real numbers, which is what the
   precondition gives (Proof/FiniteEntries.lean); at infinite entries the two arrangements can differ.

   The pieces: Proof/ScaledRowMax.lean states the result array in both arrangements and their agreement on reals;
   Proof/RefValue.lean reads the reference's run as the first; Proof/KernelPayload.lean reads one entry of what the kernel
   body stores and Proof/KernelValue.lean assembles the kernel's two column blocks into the second. The three frame claims
   are the programs' generated runs; the kernel's idealization rewrote nothing, so there is nothing to preserve. -/
import proofs.«139074_g17334488006868_pilotgen1_493_8_alg».proof.Defs
import proofs.«139074_g17334488006868_pilotgen1_493_8_alg».proof.Proof.Gen.Kernel
import proofs.«139074_g17334488006868_pilotgen1_493_8_alg».proof.Proof.Gen.Kernel.Skeleton
import proofs.«139074_g17334488006868_pilotgen1_493_8_alg».proof.Proof.Gen.Kernel.Launch
import proofs.«139074_g17334488006868_pilotgen1_493_8_alg».proof.Proof.Gen.Kernel.Points
import proofs.«139074_g17334488006868_pilotgen1_493_8_alg».proof.Proof.Gen.Kernel.Frame
import proofs.«139074_g17334488006868_pilotgen1_493_8_alg».proof.Proof.Gen.KernelIdeal
import proofs.«139074_g17334488006868_pilotgen1_493_8_alg».proof.Proof.Gen.KernelIdeal.Skeleton
import proofs.«139074_g17334488006868_pilotgen1_493_8_alg».proof.Proof.Gen.KernelIdeal.Launch
import proofs.«139074_g17334488006868_pilotgen1_493_8_alg».proof.Proof.Gen.KernelIdeal.Points
import proofs.«139074_g17334488006868_pilotgen1_493_8_alg».proof.Proof.Gen.KernelIdeal.Frame
import proofs.«139074_g17334488006868_pilotgen1_493_8_alg».proof.Proof.Gen.ReferenceIdeal
import proofs.«139074_g17334488006868_pilotgen1_493_8_alg».proof.Proof.Gen.Pre_finite_inputs
import proofs.«139074_g17334488006868_pilotgen1_493_8_alg».proof.Proof.Gen.ReferenceIdeal.Run
import proofs.«139074_g17334488006868_pilotgen1_493_8_alg».proof.Proof.Gen.ReferenceIdeal.Read
import proofs.«139074_g17334488006868_pilotgen1_493_8_alg».proof.Proof.FiniteEntries
import proofs.«139074_g17334488006868_pilotgen1_493_8_alg».proof.Proof.RefValue
import proofs.«139074_g17334488006868_pilotgen1_493_8_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel's output array ends at `X · σ` of each row's selected extreme and the
    reference's at each row's maximum of `X · σ`: one array, because every entry is real. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefValue.result_eq, (hagree c).1, (hagree c).2]
  obtain ⟨hX, hA⟩ := Cert.FiniteEntries.entries_real _ _ (hpre c)
  exact Cert.ScaledRowMax.resultMaxScaled_eq _ _ hX hA

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
